-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1x32x32x512 : Shape := ⟨5, ![128, 1, 32, 32, 512]⟩
abbrev S1x128x32x32 : Shape := ⟨4, ![1, 128, 32, 32]⟩
abbrev S1x512 : Shape := ⟨2, ![1, 512]⟩
abbrev S1x128 : Shape := ⟨2, ![1, 128]⟩
abbrev S_ : Shape := ⟨0, ![]⟩

class Facts : Prop where
  bcast_S_S128x1x32x32x512 : S_.BroadcastsInDim S128x1x32x32x512 (![] : Fin 0 → Fin S128x1x32x32x512.rank)
  reducesTo_S128x1x32x32x512_S_d0_1_2_3_4 : S128x1x32x32x512.ReducesTo [0, 1, 2, 3, 4] S_
  h_S_ : 0 < S_.numel
  bcast_S_S1x128x32x32 : S_.BroadcastsInDim S1x128x32x32 (![] : Fin 0 → Fin S1x128x32x32.rank)
  reducesTo_S1x128x32x32_S_d0_1_2_3 : S1x128x32x32.ReducesTo [0, 1, 2, 3] S_
  bcast_S_S1x512 : S_.BroadcastsInDim S1x512 (![] : Fin 0 → Fin S1x512.rank)
  reducesTo_S1x512_S_d0_1 : S1x512.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  main_v18

def fn {F : FTy → Type} [FloatOps F] (main_arg0 : FVec F S128x1x32x32x512 .f32) (main_arg1 : FVec F S1x128x32x32 .f32) (main_arg2 : FVec F S1x512 .f32) (main_arg3 : FVec F S1x128 .f32) : IVec S_ 1 :=
  let main_v0 : FVec F S128x1x32x32x512 .f32 := Host.absf main_arg0
  let main_cst : FVec F S_ .f32 := constant S_ .f32 0x7F800000#32
  let main_v1 : FVec F S128x1x32x32x512 .f32 := broadcastInDim S128x1x32x32x512 ![] bcast_S_S128x1x32x32x512 main_cst
  let main_v2 : IVec S128x1x32x32x512 1 := cmpf .olt main_v0 main_v1
  let main_c : IVec S_ 1 := constantI S_ 1 1#1
  let main_v3 : IVec S_ 1 := (fun x v => Host.reduce IntOp.andi x v reducesTo_S128x1x32x32x512_S_d0_1_2_3_4 h_S_) main_v2 main_c
  let main_v4 : FVec F S1x128x32x32 .f32 := Host.absf main_arg1
  let main_cst_0 : FVec F S_ .f32 := constant S_ .f32 0x7F800000#32
  let main_v5 : FVec F S1x128x32x32 .f32 := broadcastInDim S1x128x32x32 ![] bcast_S_S1x128x32x32 main_cst_0
  let main_v6 : IVec S1x128x32x32 1 := cmpf .olt main_v4 main_v5
  let main_c_1 : IVec S_ 1 := constantI S_ 1 1#1
  let main_v7 : IVec S_ 1 := (fun x v => Host.reduce IntOp.andi x v reducesTo_S1x128x32x32_S_d0_1_2_3 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_v13 main_v16
-- ==== Kernel.lean ====
abbrev S128x1x32x32x512 : Shape := ⟨5, ![128, 1, 32, 32, 512]⟩
abbrev S1x128x32x32 : Shape := ⟨4, ![1, 128, 32, 32]⟩
abbrev S1x512 : Shape := ⟨2, ![1, 512]⟩
abbrev S1x128 : Shape := ⟨2, ![1, 128]⟩
abbrev S128x32x32x512 : Shape := ⟨4, ![128, 32, 32, 512]⟩
abbrev S512x1 : Shape := ⟨2, ![512, 1]⟩
abbrev S128x1 : Shape := ⟨2, ![128, 1]⟩
abbrev S_ : Shape := ⟨0, ![]⟩
abbrev S1x1 : Shape := ⟨2, ![1, 1]⟩
abbrev S128 : Shape := ⟨1, ![128]⟩
abbrev S1 : Shape := ⟨1, ![1]⟩
abbrev S128x1x1x1 : Shape := ⟨4, ![128, 1, 1, 1]⟩
abbrev S8x32x32x512 : Shape := ⟨4, ![8, 32, 32, 512]⟩
abbrev S8x1 : Shape := ⟨2, ![8, 1]⟩
abbrev S8x512 : Shape := ⟨2, ![8, 512]⟩

abbrev nBuf : Space → Nat
  | .hbm => 31
  | .vmem => 5
  | .smem => 0
  | _ => 0

abbrev bufTy : (tb : Table) → Fin (tcTables nBuf tb) → BufTy
  | .hbm, ⟨0, _⟩ => ⟨S128x1x32x32x512, .f32⟩
  | .hbm, ⟨1, _⟩ => ⟨S1x128x32x32, .f32⟩
  | .hbm, ⟨2, _⟩ => ⟨S1x512, .f32⟩
  | .hbm, ⟨3, _⟩ => ⟨S1x128, .f32⟩
  | .hbm, ⟨4, _⟩ => ⟨S128x32x32x512, .f32⟩
  | .hbm, ⟨5, _⟩ => ⟨S512x1, .f32⟩
  | .hbm, ⟨6, _⟩ => ⟨S128x1, .f32⟩
  | .hbm, ⟨7, _⟩ => ⟨S_, .f32⟩
  | .hbm, ⟨8, _⟩ => ⟨S1x128, .f32⟩
  | .hbm, ⟨9, _⟩ => ⟨S_, .f32⟩
  | .hbm, ⟨10, _⟩ => ⟨S1x128, .f32⟩
  | .hbm, ⟨11, _⟩ => ⟨S1x128, .f32⟩
  | .hbm, ⟨12, _⟩ => ⟨S1x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S_, .f32⟩
  | .hbm, ⟨27, _⟩ => ⟨S1, .f32⟩
  | .hbm, ⟨28, _⟩ => ⟨S128, .f32⟩
  | .hbm, ⟨29, _⟩ => ⟨S128, .f32⟩
  | .hbm, ⟨30, _⟩ => ⟨S128x1x1x1, .f32⟩
  | .local _ .vmem, ⟨0, _⟩ => ⟨S8x32x32x512, .f32⟩
  | .local _ .vmem, ⟨1, _⟩ => ⟨S8x32x32x512, .f32⟩
  | .local _ .vmem, ⟨2, _⟩ => ⟨S512x1, .f32⟩
  | .local _ .vmem, ⟨3, _⟩ => ⟨S8x1, .f32⟩
  | .local _ .vmem, ⟨4, _⟩ => ⟨S8x1, .f32⟩
  | _, _ => ⟨S128x1x32x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_cst_1 : Ref sig .tc := ⟨.hbm, 17, rfl⟩
abbrev main_call0_v11 : Ref sig .tc := ⟨.hbm, 18, rfl⟩
abbrev main_call0_cst_2 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_cst_3 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_v0 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S128x1x32x32x512_S128x32x32x512 : S128x1x32x32x512.ShapeCasts S128x32x32x512
  transposes_S1x512_S512x1_1_0 : S1x512.Transposes [1, 0] S512x1
  reducesTo_S1x128x32x32_S1x128_d2_3 : S1x128x32x32.ReducesTo [2, 3] S1x128
  h_S_ : 0 < S_.numel
  bcast_S_S1x128 : S_.BroadcastsInDim S1x128 (![] : Fin 0 → Fin S1x128.rank)
  shapeCasts_S1x1_S_ : S1x1.ShapeCasts S_
  bcast_S_S128x1 : S_.BroadcastsInDim S128x1 (![] : Fin 0 → Fin S128x1.rank)
  shapeCasts_S128x1_S128 : S128x1.ShapeCasts S128
  reducesTo_S128_S_d0 : S128.ReducesTo [0] S_
  bcast_S_S1 : S_.BroadcastsInDim S1 (![] : Fin 0 → Fin S1.rank)
  bcast_S1_S128_0 : S1.BroadcastsInDim S128 (![0] : Fin 1 → Fin S128.rank)
  bcast_S128_S128x1x1x1_0 : S128.BroadcastsInDim S128x1x1x1 (![0] : Fin 1 → Fin S128x1x1x1.rank)
  inb_S8x32x32x512_S8x32x32x512_0_0_0_0 : ∀ a, (![0, 0, 0, 0] : Fin 4 → Nat) a + S8x32x32x512.size a ≤ S8x32x32x512.size a
  h_S8x32x32x512 : 0 < S8x32x32x512.numel
  shapeCasts_S8x32x32x512_S8x32x32x512 : S8x32x32x512.ShapeCasts S8x32x32x512
  reduces_S8x32x32x512_S8x512 : S8x32x32x512.Reduces [1, 2] S8x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S8x1_S8x1_0_0 : ∀ a, (![0, 0] : Fin 2 → Nat) a + S8x1.size a ≤ S8x1.size a
  h_S8x1 : 0 < S8x1.numel
  dot_S1x128_S1x128_S1x1_1_1_0_0_n_n_wf : DotDims.WF S1x128 S1x128 S1x1 [1] [1] [0] [0] [] []
  dot_S8x512_S512x1_S8x1_1_0_0_1_n_n_wf : DotDims.WF S8x512 S512x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x32x512.size a ≤ S128x32x32x512.size a
  hwx0_0 : ∀ i : grid0.Coords, EltTy.bits .f32 = 32 ∨ (Rect.block (s := S128x32x32x512) S8x32x32x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S512x1.size a
  hwx0_1 : ∀ i : grid0.Coords, EltTy.bits .f32 = 32 ∨ (Rect.block (s := S512x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S128x1.size a
  hwx0_2 : ∀ i : grid0.Coords, EltTy.bits .f32 = 32 ∨ (Rect.block (s := S128x1) S8x1.size (cc0_transform_2 i) (hinb0_2 i)).WholeWords (EltTy.packing .f32)

variable [Facts₀]

def dot_S1x128_S1x128_S1x1_1_1_0_0_n_n : DotDims S1x128 S1x128 S1x1 where
  lhsContracting := [1]
  rhsContracting := [1]
  lhsNonContracting := [0]
  rhsNonContracting := [0]
  lhsBatch := []
  rhsBatch := []
  wf := dot_S1x128_S1x128_S1x1_1_1_0_0_n_n_wf
def dot_S8x512_S512x1_S8x1_1_0_0_1_n_n : DotDims S8x512 S512x1 S8x1 where
  lhsContracting := [1]
  rhsContracting := [0]
  lhsNonContracting := [0]
  rhsNonContracting := [1]
  lhsBatch := []
  rhsBatch := []
  wf := dot_S8x512_S512x1_S8x1_1_0_0_1_n_n_wf

abbrev win0_0 : Pipeline.Window sig grid0 :=
  Pipeline.Window.ofSpec (Memref.whole main_call0_v0) S8x32x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S512x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S8x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x1x32x32x512 : Shape := ⟨5, ![128, 1, 32, 32, 512]⟩
abbrev S1x128x32x32 : Shape := ⟨4, ![1, 128, 32, 32]⟩
abbrev S1x512 : Shape := ⟨2, ![1, 512]⟩
abbrev S1x128 : Shape := ⟨2, ![1, 128]⟩
abbrev S_ : Shape := ⟨0, ![]⟩
abbrev S128x1x512 : Shape := ⟨3, ![128, 1, 512]⟩
abbrev S128x1x1 : Shape := ⟨3, ![128, 1, 1]⟩
abbrev S1x1 : Shape := ⟨2, ![1, 1]⟩
abbrev S1x1x1 : Shape := ⟨3, ![1, 1, 1]⟩
abbrev S128x1 : Shape := ⟨2, ![128, 1]⟩
abbrev S128 : Shape := ⟨1, ![128]⟩
abbrev S1 : Shape := ⟨1, ![1]⟩
abbrev S128x1x1x1 : Shape := ⟨4, ![128, 1, 1, 1]⟩

abbrev nBuf : Space → Nat
  | .hbm => 35
  | .vmem => 0
  | .smem => 0
  | _ => 0

abbrev bufTy : (tb : Table) → Fin (tcTables nBuf tb) → BufTy
  | .hbm, ⟨0, _⟩ => ⟨S128x1x32x32x512, .f32⟩
  | .hbm, ⟨1, _⟩ => ⟨S1x128x32x32, .f32⟩
  | .hbm, ⟨2, _⟩ => ⟨S1x512, .f32⟩
  | .hbm, ⟨3, _⟩ => ⟨S1x128, .f32⟩
  | .hbm, ⟨4, _⟩ => ⟨S_, .f32⟩
  | .hbm, ⟨5, _⟩ => ⟨S128x1x512, .f32⟩
  | .hbm, ⟨6, _⟩ => ⟨S_, .f32⟩
  | .hbm, ⟨7, _⟩ => ⟨S128x1x512, .f32⟩
  | .hbm, ⟨8, _⟩ => ⟨S128x1x512, .f32⟩
  | .hbm, ⟨9, _⟩ => ⟨S128x1x1, .f32⟩
  | .hbm, ⟨10, _⟩ => ⟨S_, .f32⟩
  | .hbm, ⟨11, _⟩ => ⟨S1x128, .f32⟩
  | .hbm, ⟨12, _⟩ => ⟨S_, .f32⟩
  | .hbm, ⟨13, _⟩ => ⟨S1x128, .f32⟩
  | .hbm, ⟨14, _⟩ => ⟨S1x128, .f32⟩
  | .hbm, ⟨15, _⟩ => ⟨S1x1, .f32⟩
  | .hbm, ⟨16, _⟩ => ⟨S1x1x1, .f32⟩
  | .hbm, ⟨17, _⟩ => ⟨S128x1x1, .f32⟩
  | .hbm, ⟨18, _⟩ => ⟨S128x1x1, .f32⟩
  | .hbm, ⟨19, _⟩ => ⟨S128x1, .f32⟩
  | .hbm, ⟨20, _⟩ => ⟨S128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S_, .f32⟩
  | .hbm, ⟨31, _⟩ => ⟨S1, .f32⟩
  | .hbm, ⟨32, _⟩ => ⟨S128, .f32⟩
  | .hbm, ⟨33, _⟩ => ⟨S128, .f32⟩
  | .hbm, ⟨34, _⟩ => ⟨S128x1x1x1, .f32⟩
  | _, _ => ⟨S128x1x32x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  reducesTo_S128x1x32x32x512_S128x1x512_d2_3 : S128x1x32x32x512.ReducesTo [2, 3] S128x1x512
  h_S_ : 0 < S_.numel
  bcast_S_S128x1x512 : S_.BroadcastsInDim S128x1x512 (![] : Fin 0 → Fin S128x1x512.rank)
  reducesTo_S1x128x32x32_S1x128_d2_3 : S1x128x32x32.ReducesTo [2, 3] S1x128
  bcast_S_S1x128 : S_.BroadcastsInDim S1x128 (![] : Fin 0 → Fin S1x128.rank)
  bcast_S1x1_S1x1x1_1_2 : S1x1.BroadcastsInDim S1x1x1 (![1, 2] : Fin 2 → Fin S1x1x1.rank)
  bcast_S1x1x1_S128x1x1_0_1_2 : S1x1x1.BroadcastsInDim S128x1x1 (![0, 1, 2] : Fin 3 → Fin S128x1x1.rank)
  shapeCasts_S128x1x1_S128x1 : S128x1x1.ShapeCasts S128x1
  shapeCasts_S128x1_S128 : S128x1.ShapeCasts S128
  reducesTo_S128_S_d0 : S128.ReducesTo [0] S_
  bcast_S_S1 : S_.BroadcastsInDim S1 (![] : Fin 0 → Fin S1.rank)
  bcast_S1_S128_0 : S1.BroadcastsInDim S128 (![0] : Fin 1 → Fin S128.rank)
  bcast_S128_S128x1x1x1_0 : S128.BroadcastsInDim S128x1x1x1 (![0] : Fin 1 → Fin S128x1x1x1.rank)
  dot_S128x1x512_S1x512_S128x1x1_2_1_01_0_n_n_wf : DotDims.WF S128x1x512 S1x512 S128x1x1 [2] [1] [0, 1] [0] [] []
  dot_S1x128_S1x128_S1x1_1_1_0_0_n_n_wf : DotDims.WF S1x128 S1x128 S1x1 [1] [1] [0] [0] [] []

variable [Facts₀]

def dot_S128x1x512_S1x512_S128x1x1_2_1_01_0_n_n : DotDims S128x1x512 S1x512 S128x1x1 where
  lhsContracting := [2]
  rhsContracting := [1]
  lhsNonContracting := [0, 1]
  rhsNonContracting := [0]
  lhsBatch := []
  rhsBatch := []
  wf := dot_S128x1x512_S1x512_S128x1x1_2_1_01_0_n_n_wf
def dot_S1x128_S1x128_S1x1_1_1_0_0_n_n : DotDims S1x128 S1x128 S1x1 where
  lhsContracting := [1]
  rhsContracting := [1]
  lhsNonContracting := [0]
  rhsNonContracting := [0]
  lhsBatch := []
  rhsBatch := []
  wf := dot_S1x128_S1x128_S1x1_1_1_0_0_n_n_wf

class Facts : Prop extends Facts₀ where

variable [Facts]
-- ==== Proof.LibReduce2.lean ====
/-
  A sum over TWO inner axes read as a double sum.

  A reduction by addition keeps, at a result index `j`, the sum of the source over the indices that drop to `j`.
  When the source index is (kept coordinates, a, b) with `a` and `b` the two reduced coordinates, the indices
  that drop to `j` are exactly the pairs (a, b) placed beside `j`'s coordinates, so the sum is
  `∑ a, ∑ b` of the source there. Stated once for any "drop" map that has such a section, then for the two
  layouts met here: a rank-4 array [n0, n1, n2, n3] summed over its axes 1 and 2 into [n0, n3] (a vector
  `multi_reduction <add>`), and a rank-5 array [n0, n1, n2, n3, n4] summed over its axes 2 and 3 into
  [n0, n1, n4] (a host `reduce` by addition, which also adds its initial value).
-/
import Idealize.ShloMosaic.PureOps.Ideal.Laws
import Idealize.ShloMosaic.Lib.ValueIdx

noncomputable section

namespace Cert.LibReduce2

open Idealize.ShloMosaic Idealize.ShloMosaic.ValueIdx

/-- If every index that `drop` sends to `j` is `mk a b` for its own pair of coordinates `co i = (a, b)`,
    and every `mk a b` is sent to `j`, then summing over the fibre of `j` is summing over the pairs. -/
theorem sum_fibre_eq_sum_pairs {I J A B M : Type*} [Fintype I] [Fintype A] [Fintype B] [AddCommMonoid M]
    (drop : I → J) (j : J) [DecidablePred fun i => drop i = j] (co : I → A × B) (mk : A → B → I)
    (hmk : ∀ a b, drop (mk a b) = j) (hco : ∀ a b, co (mk a b) = (a, b))
    (hinv : ∀ i, drop i = j → mk (co i).1 (co i).2 = i) (x : I → M) :
    ∑ i ∈ Finset.univ.filter (fun i => drop i = j), x i = ∑ a : A, ∑ b : B, x (mk a b) := by
  rw [← Fintype.sum_prod_type' (f := fun a b => x (mk a b))]
  refine Finset.sum_nbij' co (fun p => mk p.1 p.2) (fun _ _ => Finset.mem_univ _) ?_ ?_ ?_ ?_
  · intro p _
    exact Finset.mem_filter.mpr ⟨Finset.mem_univ _, hmk p.1 p.2⟩
  · intro i hi
    exact hinv i (Finset.mem_filter.mp hi).2
  · intro p _
    exact hco p.1 p.2
  · intro i hi
    exact congrArg x (hinv i (Finset.mem_filter.mp hi).2).symm

/-- A rank-4 array summed over its axes 1 and 2, read at (p, k): the double sum over those two coordinates. -/
theorem reduceAdd_axes12 {n0 n1 n2 n3 : Nat}
    (h : (⟨4, ![n0, n1, n2, n3]⟩ : Shape).Reduces [1, 2] ⟨2, ![n0, n3]⟩)
    (x : (⟨4, ![n0, n1, n2, n3]⟩ : Shape).Idx → EReal) (p : Fin n0) (k : Fin n3) :
    Ideal.reduceAdd h x (ix2 p k) = ∑ a : Fin n1, ∑ b : Fin n2, x (ix4 p a b k) := by
  unfold Ideal.reduceAdd
  refine sum_fibre_eq_sum_pairs h.drop (ix2 p k) (fun i => (i 1, i 2)) (fun a b => ix4 p a b k) ?_ ?_ ?_ x
  · intro a b
    funext d; apply Fin.ext
    match d with
    | ⟨0, _⟩ => rfl
    | ⟨1, _⟩ => rfl
  · intro a b; rfl
  · intro i hi
    have e0 : (i 0).val = p.val :=
      (show (i 0).val = (h.drop i 0).val from rfl).trans (congrArg (fun j => (j 0).val) hi)
    have e3 : (i 3).val = k.val :=
      (show (i 3).val = (h.drop i 1).val from rfl).trans (congrArg (fun j => (j 1).val) hi)
    funext d; apply Fin.ext
    match d with
    | ⟨0, _⟩ => exact e0.symm
    | ⟨1, _⟩ => rfl
    | ⟨2, _⟩ => rfl
    | ⟨3, _⟩ => exact e3.symm

/-- A rank-5 array summed by the host over its axes 2 and 3, read at (p, u, k): the initial value plus the double
    sum over those two coordinates. -/
theorem hostReduceAdd_axes23 {n0 n1 n2 n3 n4 : Nat}
    (h : (⟨5, ![n0, n1, n2, n3, n4]⟩ : Shape).ReducesTo [2, 3] ⟨3, ![n0, n1, n4]⟩)
    (x : (⟨5, ![n0, n1, n2, n3, n4]⟩ : Shape).Idx → EReal) (init : EReal) (p : Fin n0) (u : Fin n1) (k : Fin n4) :
    Ideal.hostReduceAdd h x init (ix3 p u k) = init + ∑ a : Fin n2, ∑ b : Fin n3, x (ix5 p u a b k) := by
  unfold Ideal.hostReduceAdd
  refine congrArg (init + ·) ?_
  refine sum_fibre_eq_sum_pairs h.drop (ix3 p u k) (fun i => (i 2, i 3)) (fun a b => ix5 p u a b k) ?_ ?_ ?_ x
  · intro a b
    funext d; apply Fin.ext
    match d with
    | ⟨0, _⟩ => rfl
    | ⟨1, _⟩ => rfl
    | ⟨2, _⟩ => rfl
  · intro a b; rfl
  · intro i hi
    have e0 : (i 0).val = p.val :=
      (show (i 0).val = (h.drop i 0).val from rfl).trans (congrArg (fun j => (j 0).val) hi)
    have e1 : (i 1).val = u.val :=
      (show (i 1).val = (h.drop i 1).val from rfl).trans (congrArg (fun j => (j 1).val) hi)
    have e4 : (i 4).val = k.val :=
      (show (i 4).val = (h.drop i 2).val from rfl).trans (congrArg (fun j => (j 2).val) hi)
    funext d; apply Fin.ext
    match d with
    | ⟨0, _⟩ => exact e0.symm
    | ⟨1, _⟩ => exact e1.symm
    | ⟨2, _⟩ => rfl
    | ⟨3, _⟩ => rfl
    | ⟨4, _⟩ => exact e4.symm

end Cert.LibReduce2

end
-- ==== Proof.Payload.lean ====
/-
  The kernel body's one stored value, read at an entry.

  At a grid point the body loads a block `X` of eight time steps, [8, 32, 32, 512], and the whole weight column
  `w`, [512, 1]. It sums `X` over its two spatial axes, scales every pooled entry by the constant `c` (the pattern
  of 2⁻¹⁰), and contracts the feature axis against `w` into a zero accumulator. So entry (p, q) of what it stores is
      ∑ k, (∑ a, ∑ b, X (p, a, b, k)) · c · w (k, q).
  The contraction is read as a sum over the feature coordinate `k : Fin 512` (the matrix product's operand indices
  at output (p, q) and contraction index k are (p, k) and (k, q)); the spatial sum is the double sum of
  `LibReduce2`; the two shape casts in the body are casts of a shape to itself.
-/
import proofs.«170731_j75316546503031_2_alg».proof.Proof.Gen.KernelIdeal.Skeleton
import proofs.«170731_j75316546503031_2_alg».proof.Proof.LibReduce2
import Idealize.ShloMosaic.Lib.Pipeline.Value
import Idealize.ShloMosaic.Lib.ValueIdx
import Idealize.ShloMosaic.PureOps.Ideal.Laws

noncomputable section

namespace Cert.KernelIdeal.PoolValue

open Cert.KernelIdeal Cert.KernelIdeal.Gen Idealize.ShloMosaic Idealize.ShloMosaic.ValueIdx

/-- The body's matrix product: [8, 512] times [512, 1], contracting the left operand's axis 1 with the right's axis 0. -/
abbrev Dmm : DotDims S8x512 S512x1 S8x1 := dot_S8x512_S512x1_S8x1_1_0_0_1_n_n

/-- The left operand's row coordinate is the output's row coordinate. -/
theorem lhs_row (i : S8x1.Idx) (q : Dmm.contr.Idx) : (Dmm.lhsIdx i q 0).val = (i 0).val := by
  unfold DotDims.lhsIdx
  rw [dif_neg (show ¬(0 : Fin S8x512.rank) ∈ Dmm.lhsBatch by decide),
    dif_pos (show (0 : Fin S8x512.rank) ∈ Dmm.lhsNonContracting by decide)]
  rfl
/-- Its column coordinate is the contraction coordinate. -/
theorem lhs_col (i : S8x1.Idx) (q : Dmm.contr.Idx) : (Dmm.lhsIdx i q 1).val = (q ⟨0, by decide⟩).val :=
  Dmm.lhsIdx_val_of_single rfl i q
/-- The right operand's row coordinate is the contraction coordinate. -/
theorem rhs_row (i : S8x1.Idx) (q : Dmm.contr.Idx) : (Dmm.rhsIdx i q 0).val = (q ⟨0, by decide⟩).val :=
  Dmm.rhsIdx_val_of_single rfl i q
/-- Its column coordinate is the output's column coordinate. -/
theorem rhs_col (i : S8x1.Idx) (q : Dmm.contr.Idx) : (Dmm.rhsIdx i q 1).val = (i 1).val := by
  unfold DotDims.rhsIdx
  rw [dif_neg (show ¬(1 : Fin S512x1.rank) ∈ Dmm.rhsBatch by decide),
    dif_pos (show (1 : Fin S512x1.rank) ∈ Dmm.rhsNonContracting by decide)]
  rfl

/-- The product into a zero accumulator, at (p, q): the sum over the feature coordinate of left (p, k) times right (k, q). -/
theorem matmul_entry (l : FVec Ideal S8x512 .f32) (r : FVec Ideal S512x1 .f32) (p : Fin 8) (q : Fin 1) :
    matmul (F := Ideal) Dmm none l r (constant (F := Ideal) S8x1 .f32 0x00000000#32) (ix2 p q)
      = ∑ k : Fin 512, l (ix2 p k) * r (ix2 k q) := by
  simp only [matmul]
  rw [Ideal.matmul_constant_zero_apply, ← Equiv.sum_comp (contrEquiv1 Dmm 512 rfl rfl).symm]
  refine Finset.sum_congr rfl fun k _ => ?_
  have hk := contrEquiv1_symm_val Dmm 512 rfl rfl k
  have el : Dmm.lhsIdx (ix2 p q) ((contrEquiv1 Dmm 512 rfl rfl).symm k) = ix2 p k := funext fun a => Fin.ext (by
    match a with
    | ⟨0, _⟩ => exact lhs_row _ _
    | ⟨1, _⟩ => exact (lhs_col _ _).trans hk)
  have er : Dmm.rhsIdx (ix2 p q) ((contrEquiv1 Dmm 512 rfl rfl).symm k) = ix2 k q := funext fun a => Fin.ext (by
    match a with
    | ⟨0, _⟩ => exact (rhs_row _ _).trans hk
    | ⟨1, _⟩ => exact rhs_col _ _)
  rw [el, er]

/-- The pooled and scaled block at (p, k): the double spatial sum of the block there, times the scale. The witnesses
    of the shape conditions are variables, so the statement meets the body's term whatever proofs it carries. -/
theorem pooled_scaled_entry (hr : S8x32x32x512.Reduces [1, 2] S8x512)
    (hφ : FKind.Formats .f32) (hacc : (0x00000000#32 : BitVec 32) = FKind.add.neutral .f32 hφ)
    (x0 : FVec Ideal S8x32x32x512 .f32) (c : Ideal .f32) (p : Fin 8) (k : Fin 512) :
    mulf (multiReduction .add [1, 2] S8x512 x0 0x00000000#32 hr hφ hacc) (broadcast S8x512 c) (ix2 p k)
      = (∑ a : Fin 32, ∑ b : Fin 32, x0 (ix4 p a b k)) * c := by
  show Ideal.reduceAdd hr x0 (ix2 p k) * c = _
  rw [Cert.LibReduce2.reduceAdd_axes12]

/-- THE STORED VALUE at (p, q). -/
theorem payload_entry (x0 : Vec Ideal S8x32x32x512 .f32) (x1 : Vec Ideal S512x1 .f32) (p : Fin 8) (q : Fin 1) :
    k0_pay1 (F := Ideal) x0 x1 (ix2 p q)
      = ∑ k : Fin 512, (∑ a : Fin 32, ∑ b : Fin 32, x0 (ix4 p a b k)) * Ideal.ofBits .f32 0x3A800000#32 * x1 (ix2 k q) := by
  unfold k0_pay1
  refine (matmul_entry _ _ p q).trans ?_
  refine Finset.sum_congr rfl fun k _ => ?_
  rw [shapeCast_self, shapeCast_self]
  exact congrArg (· * x1 (ix2 k q)) (pooled_scaled_entry _ _ _ x0 (Ideal.ofBits .f32 0x3A800000#32) p k)

end Cert.KernelIdeal.PoolValue

end
-- ==== Proof.KernelValue.lean ====
/-
  The kernel's output array after the region, as ONE function of the two arrays the region reads.

  The region reads `X`, [128, 32, 32, 512] (the input with its unit batch axis dropped), in blocks of eight time
  steps, and the weight column `W`, [512, 1], whole at every point; grid point `t` writes rows 8t … 8t+7 of the
  [128, 1] output. By the payload's reading, row r of the output is
      score X W (r, 0) = ∑ k, (∑ a, ∑ b, X (r, a, b, k)) · c · W (k, 0),
  and that is a function of the array index alone: block `t` of the output is block `t` of `score X W`, because
  row p of the loaded block is row 8t + p of `X` (the block's index on the time axis is the output block's, and is
  zero on every other axis), and the weight block is `W` itself. The sixteen blocks tile the 128 rows (row r is in
  block r / 8), so after the region the output array IS `score X W`.
  The two arrays the region finds are what the two host operations before it make of the arguments: the input
  reshaped, and the weight row transposed.
-/
import proofs.«170731_j75316546503031_2_alg».proof.Proof.Gen.KernelIdeal.Frame
import proofs.«170731_j75316546503031_2_alg».proof.Proof.Payload
import Idealize.ShloMosaic.Lib.Pipeline.Value
import Idealize.ShloMosaic.Lib.ValueIdx
import Idealize.ShloMosaic.Lib.StableHlo.Run

set_option maxRecDepth 16384

noncomputable section

namespace Cert.KernelIdeal.PoolValue

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- Row `i 0` of the output: the pooled, scaled features of that time step contracted with the weight column. -/
def score (X : S128x32x32x512.Idx → EReal) (W : S512x1.Idx → EReal) : S128x1.Idx → EReal :=
  fun i => ∑ k : Fin 512, (∑ a : Fin 32, ∑ b : Fin 32, X (ix4 (i 0) a b k)) * Ideal.ofBits .f32 0x3A800000#32 * W (ix2 k (i 1))

/-- What the body stores at `y` is `score` at `i`, when row `y 0` of the loaded block is row `i 0` of `X` and column
    `y 1` of the loaded weights is column `i 1` of `W`. -/
theorem block_entry (x0 : Vec Ideal S8x32x32x512 .f32) (x1 : Vec Ideal S512x1 .f32)
    (X : S128x32x32x512.Idx → EReal) (W : S512x1.Idx → EReal) (y : S8x1.Idx) (i : S128x1.Idx)
    (h0 : ∀ (a : Fin 32) (b : Fin 32) (k : Fin 512), x0 (ix4 (y 0) a b k) = X (ix4 (i 0) a b k))
    (h1 : ∀ k : Fin 512, x1 (ix2 k (y 1)) = W (ix2 k (i 1))) :
    k0_pay1 (F := Ideal) x0 x1 y = score X W i := by
  refine ((congrArg (k0_pay1 (F := Ideal) x0 x1) (eq_ix2 y)).trans (payload_entry x0 x1 (y 0) (y 1))).trans ?_
  unfold score
  refine Finset.sum_congr rfl fun k _ => ?_
  refine congrArg₂ (fun u v => u * Ideal.ofBits .f32 0x3A800000#32 * v) ?_ (h1 k)
  exact Finset.sum_congr rfl fun a _ => Finset.sum_congr rfl fun b _ => h0 a b k

variable (m : (ℓ : Loc nD τ sig) → Buf (Elt Ideal) ℓ) (ρ : Dev nD → PrngReg)

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- The printed index maps over the sixteen points: the input block moves with the output block along time and sits at
    zero on the other axes; the weight block never moves; the output block is the point's number. -/
theorem index_facts : ∀ t : Fin cfg0.N,
    win0_0.index t (0 : Fin 4) = win0_2.index t (0 : Fin 2)
    ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (1 : Fin 2) = 0 :=
  (by decide +kernel : ∀ t : Fin grid0.N, _)

/-- Every one of the sixteen row blocks is some point's. -/
theorem index_onto : ∀ q0 : Fin 16, ∃ t : Fin cfg0.N, win0_2.index t = ![q0.val, 0] :=
  (by decide +kernel : ∀ q0 : Fin 16, ∃ t : Fin grid0.N, win0_2.index t = ![q0.val, 0])

/-- WHAT POINT `t` WRITES BACK is block `t` of `score` of the two arrays the region finds. -/
theorem flushed_eq (c : Dev nD) (t : Fin cfg0.N) :
    (dats m 0 c).flushed 2 t
      = ((cfg0.win 2).blk t).view.read (Elt Ideal) (score (V m c main_call0_v0) (V m c main_call0_v1)) := by
  show (cfg0.win 2).cut (grid0.coords t) ((dats m 0 c).after 2 t) = _
  rw [after0_2]
  unfold out0_2
  rw [View.canon_unit_zero zeros2]
  simp only [View.ld_unit_zero (S := S8x32x32x512) zeros4, View.ld_unit_zero (S := S512x1) zeros2]
  obtain ⟨e0, e1, e2, e3, e4, e5, e6⟩ := index_facts t
  funext j
  show k0_pay1 (F := Ideal) (iblk m c 0 t) (iblk m c 1 t) j
    = score (V m c main_call0_v0) (V m c main_call0_v1) (((cfg0.win 2).blk t).view.emb j)
  refine block_entry (iblk m c 0 t) (iblk m c 1 t) (V m c main_call0_v0) (V m c main_call0_v1) j
    (((cfg0.win 2).blk t).view.emb j) ?_ ?_
  · intro a b k
    show V m c main_call0_v0 (((cfg0.win 0).blk t).view.emb (ix4 (j 0) a b k))
      = V m c main_call0_v0 (ix4 ((((cfg0.win 2).blk t).view.emb j) 0) a b k)
    refine congrArg (V m c main_call0_v0) ?_
    funext d; apply Fin.ext
    match d with
    | ⟨0, _⟩ => show win0_0.index t (0 : Fin 4) * 8 + 1 * (j 0).val = win0_2.index t (0 : Fin 2) * 8 + 1 * (j 0).val; omega
    | ⟨1, _⟩ => show win0_0.index t (1 : Fin 4) * 32 + 1 * a.val = a.val; omega
    | ⟨2, _⟩ => show win0_0.index t (2 : Fin 4) * 32 + 1 * b.val = b.val; omega
    | ⟨3, _⟩ => show win0_0.index t (3 : Fin 4) * 512 + 1 * k.val = k.val; omega
  · intro k
    show V m c main_call0_v1 (((cfg0.win 1).blk t).view.emb (ix2 k (j 1)))
      = V m c main_call0_v1 (ix2 k ((((cfg0.win 2).blk t).view.emb j) 1))
    refine congrArg (V m c main_call0_v1) ?_
    funext d; apply Fin.ext
    match d with
    | ⟨0, _⟩ => show win0_1.index t (0 : Fin 2) * 512 + 1 * k.val = k.val; omega
    | ⟨1, _⟩ => show win0_1.index t (1 : Fin 2) * 1 + 1 * (j 1).val = win0_2.index t (1 : Fin 2) * 1 + 1 * (j 1).val; omega

/-- An index of the output array is in point `t`'s block iff each coordinate is in the block's range on its axis. -/
theorem mem_block (t : Fin cfg0.N) (i : S128x1.Idx) :
    i ∈ ((cfg0.win 2).blk t).view.set
      ↔ ∀ a : Fin 2, win0_2.index t a * S8x1.size a ≤ (i a).val ∧ (i a).val < win0_2.index t a * S8x1.size a + S8x1.size a := by
  show i ∈ ((View.whole main_call0_v2).slice (win0_2.rect t)).set ↔ _
  rw [View.set_slice_whole, Rect.mem_set_unit]
  exact Iff.rfl

/-- Row r lies in the block of the point whose output block is r / 8. -/
theorem covered (i : S128x1.Idx) :
    ∃ t : Fin cfg0.N, (cfg0.win 2).flush t = true ∧ i ∈ ((cfg0.win 2).blk t).view.set := by
  have hi0 : (i 0).val < 128 := (i 0).isLt
  have hi1 : (i 1).val < 1 := (i 1).isLt
  obtain ⟨t, ht⟩ := index_onto ⟨(i 0).val / 8, by omega⟩
  have q0 : win0_2.index t (0 : Fin 2) = (i 0).val / 8 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 1 ≤ (i 1).val ∧ (i 1).val < win0_2.index t (1 : Fin 2) * 1 + 1; omega

/-- THE OUTPUT ARRAY after the region is `score` of the two arrays the region finds. -/
theorem output_eq (c : Dev nD) :
    (dats m 0 c).arrAt 2 cfg0.N = score (V m c main_call0_v0) (V m c main_call0_v1) :=
  (dats m 0 c).arrAt_eq_of_cover 2 _ (fun t _ => flushed_eq m c t) covered

/-- The first array the region finds is the input reshaped (its unit batch axis dropped). -/
theorem found_x (c : Dev nD) :
    (V m c main_call0_v0 : S128x32x32x512.Idx → EReal)
      = shapeCast S128x32x32x512 (m ((c : Thread nD τ).loc main_arg0)) shapeCasts_S128x1x32x32x512_S128x32x32x512 := by
  show StableHlo.after hostOps0 (fun b => m (c, b)) (Proc.devRef .tc main_call0_v0) = _
  after_results
  rfl

/-- The second is the weight row transposed. -/
theorem found_w (c : Dev nD) :
    (V m c main_call0_v1 : S512x1.Idx → EReal)
      = transpose S512x1 [1, 0] (m ((c : Thread nD τ).loc main_arg2)) transposes_S1x512_S512x1_1_0 := by
  show StableHlo.after hostOps0 (fun b => m (c, b)) (Proc.devRef .tc main_call0_v1) = _
  after_results
  rfl

end Cert.KernelIdeal.PoolValue

end
-- ==== Proof.Spec.lean ====
/-
  What both programs compute, as one function of the four argument arrays.

  Inputs: `x` [128, 1, 32, 32, 512] (time, a unit batch axis, two spatial axes, features), `h` [1, 128, 32, 32],
  the weight rows `wx` [1, 512] and `wh` [1, 128].
    pooled x t k   = ∑ a, ∑ b, x (t, 0, a, b, k)                         the spatial sum of feature k at time t
    hidden h wh    = (mean of h over its two spatial axes) · wh          a [1, 1] array, the same host operations
                                                                         in both programs, kept as they are printed
    logits … t     = ∑ k, pooled x t k · c · wx (0, k)  +  hidden (0, 0)  with c the pattern of 2⁻¹⁰
    weights e      = softmax of the 128 logits, as both programs spell it (subtract the maximum, exponentiate,
                     divide by the sum), laid out as [128, 1, 1, 1]
  The softmax is never opened: both programs apply these same operations to their logits, so it is enough that
  the logits agree.
-/
import Idealize.ShloMosaic.PureOps.Ideal.Laws
import Idealize.ShloMosaic.Lib.ValueIdx

noncomputable section

namespace Cert.Spec

open Idealize.ShloMosaic Idealize.ShloMosaic.ValueIdx

abbrev Tx : Shape := ⟨5, ![128, 1, 32, 32, 512]⟩
abbrev Th : Shape := ⟨4, ![1, 128, 32, 32]⟩
abbrev Twx : Shape := ⟨2, ![1, 512]⟩
abbrev Twh : Shape := ⟨2, ![1, 128]⟩
abbrev T11 : Shape := ⟨2, ![1, 1]⟩
abbrev T128 : Shape := ⟨1, ![128]⟩
abbrev T1 : Shape := ⟨1, ![1]⟩
abbrev T0 : Shape := ⟨0, ![]⟩
abbrev Tout : Shape := ⟨4, ![128, 1, 1, 1]⟩

/-- The spatial sum of feature `k` at time `t`. -/
def pooled (x : Tx.Idx → EReal) (t : Fin 128) (k : Fin 512) : EReal :=
  ∑ a : Fin 32, ∑ b : Fin 32, x (ix5 t 0 a b k)

/-- The contraction of the hidden state's spatial mean with its weight row: [1, 128] against [1, 128] over the
    second axis of each, into [1, 1]. -/
def dotHidden : DotDims Twh Twh T11 where
  lhsContracting := [1]
  rhsContracting := [1]
  lhsNonContracting := [0]
  rhsNonContracting := [0]
  lhsBatch := []
  rhsBatch := []
  wf := by decide

/-- The hidden state's contribution, as both programs print it: sum over the two spatial axes, divide by 1024,
    contract with the weight row. -/
def hidden (h : FVec Ideal Th .f32) (wh : FVec Ideal Twh .f32) : FVec Ideal T11 .f32 :=
  Host.dotGeneral (F := Ideal) dotHidden none
    (Host.divf (F := Ideal)
      (Host.reduceAdd (F := Ideal) (axes := [2, 3]) (t := Twh) h (constant (F := Ideal) T0 .f32 0x00000000#32) (by decide) (by decide))
      (broadcastInDim Twh ![] (by decide) (constant (F := Ideal) T0 .f32 0x44800000#32)))
    wh

/-- The 128 attention logits. -/
def logits (x : Tx.Idx → EReal) (wx : Twx.Idx → EReal) (a : EReal) : T128.Idx → EReal :=
  fun i => (∑ k : Fin 512, pooled x (i 0) k * Ideal.ofBits .f32 0x3A800000#32 * wx (ix2 0 k)) + a

/-- The softmax over the 128 logits, operation by operation as both programs print it, as a [128, 1, 1, 1] array. -/
def weights (e : FVec Ideal T128 .f32) : FVec Ideal Tout .f32 :=
  let mx : FVec Ideal T0 .f32 :=
    maximumf (constant (F := Ideal) T0 .f32 0xFF800000#32)
      (Host.reduce (axes := [0]) (t := T0) FloatOps.maximumf e (constant (F := Ideal) T0 .f32 0xFF800000#32) (by decide) (by decide))
  let ex : FVec Ideal T128 .f32 :=
    Host.exp (F := Ideal) (subf e (broadcastInDim T128 ![0] (by decide) (broadcastInDim T1 ![] (by decide) mx)))
  let sm : FVec Ideal T0 .f32 :=
    Host.reduceAdd (F := Ideal) (axes := [0]) (t := T0) ex (constant (F := Ideal) T0 .f32 0x00000000#32) (by decide) (by decide)
  broadcastInDim Tout ![0] (by decide)
    (Host.divf (F := Ideal) ex (broadcastInDim T128 ![0] (by decide) (broadcastInDim T1 ![] (by decide) sm)))

/-- THE RESULT of both programs. -/
def result (x : Tx.Idx → EReal) (h : FVec Ideal Th .f32) (wx : Twx.Idx → EReal) (wh : FVec Ideal Twh .f32) :
    FVec Ideal Tout .f32 :=
  weights (logits x wx (hidden h wh (ix2 0 0)))

end Cert.Spec

end
-- ==== Proof.KernelResult.lean ====
/-
  The kernel's program computes `Spec.result` of its arguments.

  After the region the host adds the hidden state's contribution to every row of the region's [128, 1] output,
  flattens it to the 128 logits and applies the softmax. Read back from the run: the result buffer holds
  `Spec.weights` of those logits, where the region's output array is `score X W` (X the input reshaped, W the weight
  row transposed) and the hidden state's operations are `Spec.hidden`. Logit `t` is then
      score X W (t, 0) + hidden (0, 0) = ∑ k, (∑ a, ∑ b, x (t, 0, a, b, k)) · c · wx (0, k) + hidden (0, 0):
  the reshape sends (t, a, b, k) to (t, 0, a, b, k) (equal row-major positions), the transpose sends (k, 0) to
  (0, k), and the remaining casts and broadcasts only rename indices. That is `Spec.logits`.
-/
import proofs.«170731_j75316546503031_2_alg».proof.Proof.KernelValue
import proofs.«170731_j75316546503031_2_alg».proof.Proof.Spec

set_option maxRecDepth 16384

noncomputable section

namespace Cert.KernelIdeal.PoolValue

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- The logits as the host lines after the region spell them, from the region's output array `o`. -/
def hostLogits (o : FVec Ideal S128x1 .f32) (h : FVec Ideal S1x128x32x32 .f32) (wh : FVec Ideal S1x128 .f32) :
    FVec Ideal S128 .f32 :=
  shapeCast S128
    (addf o (broadcastInDim S128x1 ![] bcast_S_S128x1 (shapeCast S_ (Cert.Spec.hidden h wh) shapeCasts_S1x1_S_)))
    shapeCasts_S128x1_S128

/-- Running a line of operations and then another is running the two lines one after the other. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op ops ih => simp only [List.cons_append, StableHlo.after_cons, ih]

/-- Contents moved to a typed reference's buffer type and back are unchanged. -/
theorem ofBuf_toBuf {T : BufTy} (x : StableHlo.TRef sig T) (v : T.Contents (Elt Ideal)) : x.ofBuf (x.toBuf v) = v := by
  unfold StableHlo.TRef.ofBuf StableHlo.TRef.toBuf
  rw [cast_cast, cast_eq]

/-- The first ten host lines after the region leave the logits in their buffer. -/
theorem logits_after (Wv : Valuation τ sig (Elt Ideal)) :
    StableHlo.after ((hostOps1 (F := Ideal)).take 10) Wv (Proc.devRef .tc main_call0_v10)
      = hostLogits (Wv (Proc.devRef .tc main_call0_v2)) (Wv (Proc.devRef .tc main_arg1)) (Wv (Proc.devRef .tc main_arg3)) := by
  simp only [hostOps1, List.take_succ_cons, List.take_zero]
  after_results
  rfl

/-- The remaining fourteen are the softmax of whatever that buffer holds. (The intermediate values pass through their
    buffers unchanged, which is stated first so that the two sides are compared operation by operation.) -/
theorem softmax_after (Wv : Valuation τ sig (Elt Ideal)) :
    StableHlo.after ((hostOps1 (F := Ideal)).drop 10) Wv (Proc.devRef .tc main_v0)
      = Cert.Spec.weights (Wv (Proc.devRef .tc main_call0_v10)) := by
  simp only [hostOps1, List.drop_succ_cons, List.drop_zero]
  after_results
  simp only [ofBuf_toBuf]
  rfl

/-- The host lines after the region, run from any buffer contents `Wv`, leave in the result buffer the softmax of
    the logits, read from the region's output array and the two hidden-state arguments. -/
theorem tail_after (Wv : Valuation τ sig (Elt Ideal)) :
    StableHlo.after (hostOps1 (F := Ideal)) Wv (Proc.devRef .tc main_v0)
      = Cert.Spec.weights (hostLogits (Wv (Proc.devRef .tc main_call0_v2)) (Wv (Proc.devRef .tc main_arg1))
          (Wv (Proc.devRef .tc main_arg3))) := by
  rw [← List.take_append_drop 10 (hostOps1 (F := Ideal)), after_append, softmax_after, logits_after]

variable (m : (ℓ : Loc nD τ sig) → Buf (Elt Ideal) ℓ) (ρ : Dev nD → PrngReg)

/-- The result buffer after the whole program, from the region's output array and the launch contents. -/
theorem tail_read (c : Dev nD) :
    Pipeline.afterTail₀ cfgs (dats m) 0 (V0 m) [hostOps1] c main_v0
      = Cert.Spec.weights (hostLogits ((dats m 0 c).arrAt 2 cfg0.N) (m ((c : Thread nD τ).loc main_arg1))
          (m ((c : Thread nD τ).loc main_arg3))) := by
  unfold Pipeline.afterTail₀
  generalize hW : Pipeline.withArrays (cfgs 0).spec c (V0 m c) (fun w => (dats m 0 c).arrAt w (cfgs 0).N) = Wv
  simp only [List.flatten_cons, List.flatten_nil, List.append_nil]
  have e2 : Wv (Proc.devRef .tc main_call0_v2) = (dats m 0 c).arrAt 2 cfg0.N := by
    rw [← hW]; exact Pipeline.withArrays_arr spec0 launch0.win.arr_inj c _ _ 2
  have e1 : Wv (Proc.devRef .tc main_arg1) = m ((c : Thread nD τ).loc main_arg1) := by
    rw [← hW, Pipeline.withArrays_of_ne _ c (V0 m c) _ main_arg1 (by exact (by decide : ∀ w, Pipeline.arrRef spec0 w ≠ main_arg1))]
    exact V_main_arg1 m c
  have e3 : Wv (Proc.devRef .tc main_arg3) = m ((c : Thread nD τ).loc main_arg3) := by
    rw [← hW, Pipeline.withArrays_of_ne _ c (V0 m c) _ main_arg3 (by exact (by decide : ∀ w, Pipeline.arrRef spec0 w ≠ main_arg3))]
    exact V_main_arg3 m c
  rw [tail_after, e2, e1, e3]

/-- The reshape of the input at (t, a, b, k) reads the input at (t, 0, a, b, k). -/
theorem reshaped_entry (x : FVec Ideal S128x1x32x32x512 .f32) (t : Fin 128) (a b : Fin 32) (k : Fin 512) :
    shapeCast S128x32x32x512 x shapeCasts_S128x1x32x32x512_S128x32x32x512 (ix4 t a b k) = x (ix5 t 0 a b k) :=
  shapeCast_apply x shapeCasts_S128x1x32x32x512_S128x32x32x512 (ix4 t a b k) (ix5 t 0 a b k) (by
    rewrite [Shape.rowMajor_val_five, Shape.rowMajor_val_four]
    show (((t.val * 1 + 0) * 32 + a.val) * 32 + b.val) * 512 + k.val = ((t.val * 32 + a.val) * 32 + b.val) * 512 + k.val
    omega)

/-- The transposed weight row at (k, 0) reads the row at (0, k). -/
theorem transposed_entry (wx : FVec Ideal S1x512 .f32) (k : Fin 512) :
    transpose S512x1 [1, 0] wx transposes_S1x512_S512x1_1_0 (ix2 k 0) = wx (ix2 0 k) :=
  transpose_apply [1, 0] wx transposes_S1x512_S512x1_1_0 (ix2 k 0) (ix2 0 k) (fun b => by
    match b with
    | ⟨0, _⟩ => rfl
    | ⟨1, _⟩ => rfl)

/-- THE LOGITS of the kernel's program are `Spec.logits`. -/
theorem hostLogits_eq (x : FVec Ideal S128x1x32x32x512 .f32) (h : FVec Ideal S1x128x32x32 .f32)
    (wx : FVec Ideal S1x512 .f32) (wh : FVec Ideal S1x128 .f32) :
    hostLogits (score (shapeCast S128x32x32x512 x shapeCasts_S128x1x32x32x512_S128x32x32x512)
        (transpose S512x1 [1, 0] wx transposes_S1x512_S512x1_1_0)) h wh
      = Cert.Spec.logits x wx (Cert.Spec.hidden h wh (ix2 0 0)) := by
  funext i
  obtain ⟨t, rfl⟩ : ∃ t : Fin 128, i = ix1 t := ⟨i 0, eq_ix1 i⟩
  unfold hostLogits
  rw [shapeCast_apply _ shapeCasts_S128x1_S128 (ix1 t) (ix2 t 0) (by
      rewrite [Shape.rowMajor_val_two, Shape.rowMajor_val_one]
      show t.val * 1 + 0 = t.val
      omega),
    addf_apply,
    broadcastInDim_apply _ bcast_S_S128x1 _ (ix2 t 0) ix0 (fun a => a.elim0),
    shapeCast_apply _ shapeCasts_S1x1_S_ ix0 (ix2 0 0) (by
      rewrite [Shape.rowMajor_val_two]
      exact (Fin.val_eq_zero _).symm)]
  unfold score Cert.Spec.logits Cert.Spec.pooled
  refine congrArg (· + Cert.Spec.hidden h wh (ix2 0 0)) ?_
  refine Finset.sum_congr rfl fun k _ => ?_
  refine congrArg₂ (fun u v => u * Ideal.ofBits .f32 0x3A800000#32 * v) ?_ (transposed_entry wx k)
  exact Finset.sum_congr rfl fun a _ => Finset.sum_congr rfl fun b _ => reshaped_entry x t a b k

/-- THE RESULT BUFFER after the kernel's program is `Spec.result` of the argument arrays. -/
theorem result_eq (c : Dev nD) :
    Pipeline.afterTail₀ cfgs (dats m) 0 (V0 m) [hostOps1] c main_v0
      = Cert.Spec.result (m ((c : Thread nD τ).loc main_arg0)) (m ((c : Thread nD τ).loc main_arg1))
          (m ((c : Thread nD τ).loc main_arg2)) (m ((c : Thread nD τ).loc main_arg3)) := by
  rw [tail_read, output_eq, found_x, found_w, hostLogits_eq]
  rfl

/-- THE RUN of the kernel's program: every weakly fair execution terminates with the result buffer at `Spec.result`
    of the argument arrays, and the argument arrays as launched. -/
theorem run : θ_run defs (onTc (τ := τ) (main (F := Ideal))) ⟨m, fun _ => 0, ρ⟩ fun r => ∀ c : Dev nD,
      r.2.mem ((c.tc : Thread nD τ).loc main_v0)
        = Cert.Spec.result (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.PoolValue

end
-- ==== Proof.Consts.lean ====
/-
  The two float constants of this certificate, read as the extended reals their bit patterns denote.
  The kernel scales a pooled sum by the pattern of 2⁻¹⁰; the reference divides by the pattern of 2¹⁰.
  Dividing an extended real by 1024 is multiplying it by 1/1024 — at the infinities too, since the divisor
  is a finite real that is not zero — so the two spellings of "mean over 32 × 32 positions" agree everywhere.
-/
import Idealize.ShloMosaic.PureOps.Ideal

noncomputable section

namespace Cert.Consts

open Idealize.ShloMosaic

/-- The pattern `0x44800000` (sign 0, exponent 137, fraction 0) denotes the real `1024 = 2¹⁰`. -/
theorem ofBits_1024 : Ideal.ofBits .f32 0x44800000#32 = ((1024 : ℝ) : EReal) := by
  simp [Ideal.ofBits, Ideal.ieee, -EReal.coe_mul]; norm_num

/-- The pattern `0x3A800000` (sign 0, exponent 117, fraction 0) denotes the real `1/1024 = 2⁻¹⁰`. -/
theorem ofBits_inv_1024 : Ideal.ofBits .f32 0x3A800000#32 = ((1 / 1024 : ℝ) : EReal) := by
  simp [Ideal.ofBits, Ideal.ieee, -EReal.coe_mul]; norm_num

/-- The quotient by the first pattern is the product with the second, on every extended real. -/
theorem div_1024 (s : EReal) :
    Ideal.div s (Ideal.ofBits .f32 0x44800000#32) = s * Ideal.ofBits .f32 0x3A800000#32 := by
  rw [ofBits_1024, ofBits_inv_1024]
  exact Ideal.div_coe (by norm_num) s

end Cert.Consts

end
-- ==== Proof.RefResult.lean ====
/-
  The reference computes `Spec.result` of its arguments.

  Read one operation at a time (the generated stages `val_main_vN`): the last eleven stages are the softmax of
  the logits `val_main_v12`, operation for operation what `Spec.weights` applies; the hidden state's stages are
  `Spec.hidden`; and logit `t` is
      ∑ k, ((0 + ∑ a, ∑ b, x (t, 0, a, b, k)) / 1024) · wx (0, k)  +  hidden (0, 0):
  the host's sum over the two spatial axes is its initial value, zero, plus the double sum; the quotient by 1024
  is the product with 2⁻¹⁰; the two reshapes and the two broadcasts only rename indices.
-/
import proofs.«170731_j75316546503031_2_alg».proof.Proof.Gen.ReferenceIdeal.Read
import proofs.«170731_j75316546503031_2_alg».proof.Proof.Spec
import proofs.«170731_j75316546503031_2_alg».proof.Proof.LibReduce2
import proofs.«170731_j75316546503031_2_alg».proof.Proof.Consts

noncomputable section

namespace Cert.ReferenceIdeal.RefValue

open Cert.ReferenceIdeal Cert.ReferenceIdeal.Gen Cert.ReferenceIdeal.Read Idealize.ShloMosaic Idealize.ShloMosaic.ValueIdx

/-- The last eleven stages are the softmax of the logits. -/
theorem softmax_stages (x0 : FVec Ideal S128x1x32x32x512 .f32) (x1 : FVec Ideal S1x128x32x32 .f32)
    (x2 : FVec Ideal S1x512 .f32) (x3 : FVec Ideal S1x128 .f32) :
    val_main_v23 (F := Ideal) x0 x1 x2 x3 = Cert.Spec.weights (val_main_v12 (F := Ideal) x0 x1 x2 x3) := by
  unfold val_main_v23 val_main_v22 val_main_v21 val_main_v20 val_main_v19 val_main_v18 val_main_v17 val_main_v16
    val_main_v15 val_main_v14 val_main_v13 val_main_cst_3 val_main_cst_4 val_main_cst_5
  generalize val_main_v12 (F := Ideal) x0 x1 x2 x3 = e
  rfl

/-- The hidden state's stages are `Spec.hidden`. -/
theorem hidden_stages (x1 : FVec Ideal S1x128x32x32 .f32) (x3 : FVec Ideal S1x128 .f32) :
    val_main_v7 (F := Ideal) x1 x3 = Cert.Spec.hidden x1 x3 := by
  unfold val_main_v7 val_main_v6 val_main_v5 val_main_v4 val_main_cst_1 val_main_cst_2
  rfl

/-- The spatial mean of feature `k` at time `t`: the pooled sum times 2⁻¹⁰. -/
theorem mean_entry (x0 : FVec Ideal S128x1x32x32x512 .f32) (t : Fin 128) (k : Fin 512) :
    val_main_v2 (F := Ideal) x0 (ix3 t 0 k) = Cert.Spec.pooled x0 t k * Ideal.ofBits .f32 0x3A800000#32 := by
  rw [val_main_v2_apply, val_main_v1_apply, val_main_cst_0_apply]
  show Ideal.div (Ideal.hostReduceAdd reducesTo_S128x1x32x32x512_S128x1x512_d2_3 x0 (Ideal.ofBits .f32 0x00000000#32) (ix3 t 0 k))
      (Ideal.ofBits .f32 0x44800000#32) = _
  rw [Cert.LibReduce2.hostReduceAdd_axes23, Ideal.ofBits_zero_f32, zero_add, Cert.Consts.div_1024]
  rfl

/-- The logits. -/
theorem logits_stages (x0 : FVec Ideal S128x1x32x32x512 .f32) (x1 : FVec Ideal S1x128x32x32 .f32)
    (x2 : FVec Ideal S1x512 .f32) (x3 : FVec Ideal S1x128 .f32) :
    val_main_v12 (F := Ideal) x0 x1 x2 x3 = Cert.Spec.logits x0 x2 (Cert.Spec.hidden x1 x3 (ix2 0 0)) := by
  funext i
  obtain ⟨t, rfl⟩ : ∃ t : Fin 128, i = ix1 t := ⟨i 0, eq_ix1 i⟩
  rw [val_main_v12_apply, val_main_v11_apply, val_main_v10_apply, val_main_v3_apply, val_main_v9_apply, val_main_v8_apply,
    hidden_stages]
  unfold Cert.Spec.logits
  have hI : idx_main_v8 (idx_main_v9 (idx_main_v11 (idx_main_v12 (ix1 t)))) = ix2 0 0 := funext fun a => Fin.ext (by
    match a with
    | ⟨0, _⟩ => rfl
    | ⟨1, _⟩ => rfl)
  rw [hI]
  refine congrArg (· + Cert.Spec.hidden x1 x3 (ix2 0 0)) ?_
  refine Finset.sum_congr rfl fun k _ => ?_
  have hl : lidx_main_v3 (idx_main_v11 (idx_main_v12 (ix1 t))) k = ix3 t 0 k := funext fun a => Fin.ext (by
    match a with
    | ⟨0, _⟩ => show (t.val / 1 * 1 + 0) / 1 = t.val; omega
    | ⟨1, _⟩ => rfl
    | ⟨2, _⟩ => rfl)
  have hr : ridx_main_v3 (idx_main_v11 (idx_main_v12 (ix1 t))) k = ix2 0 k := funext fun a => Fin.ext (by
    match a with
    | ⟨0, _⟩ => rfl
    | ⟨1, _⟩ => rfl)
  rw [hl, hr, mean_entry]

/-- THE REFERENCE'S RESULT. -/
theorem result_stages (x0 : FVec Ideal S128x1x32x32x512 .f32) (x1 : FVec Ideal S1x128x32x32 .f32)
    (x2 : FVec Ideal S1x512 .f32) (x3 : FVec Ideal S1x128 .f32) :
    val_main_v23 (F := Ideal) x0 x1 x2 x3 = Cert.Spec.result x0 x1 x2 x3 := by
  rw [softmax_stages, logits_stages]
  rfl

end Cert.ReferenceIdeal.RefValue

end
-- ==== Proof.lean ====
/-
  Temporal attention by pooling: a tiled kernel against its plain reference, equal over the extended reals.

  Both programs take `x` [128, 1, 32, 32, 512], `h` [1, 128, 32, 32] and two weight rows, and return the softmax over
  the 128 time steps of the logits
      e t = ∑ k, (mean over the 32 × 32 positions of x (t, 0, ·, ·, k)) · wx (0, k)  +  (mean of h) · wh.
  The reference takes the mean as a host sum divided by 1024. The kernel streams `x` in blocks of eight time steps,
  sums each block over its spatial axes, multiplies by the constant 2⁻¹⁰ and contracts with the weight column on the
  matrix unit; the hidden-state term and the softmax are the same host operations in both programs.
  Why they agree at the ideal values:
    * a sum over the two spatial axes is the same double sum however it is tiled or spelt (`LibReduce2`), the
      host's also adding its initial value, zero;
    * dividing an extended real by 1024 is multiplying it by 2⁻¹⁰ — also at ±∞, since 1024 is finite and not zero
      (`Consts`) — so no finiteness of the inputs is used;
    * the kernel's sixteen output blocks tile the 128 rows, and block `t` holds rows 8t … 8t+7 of one whole-array
      function of the inputs (`KernelValue`);
    * reshapes, the transpose and the broadcasts only rename indices (`KernelResult`, `RefResult`);
    * the softmax is applied to equal logits and is never opened (`Spec.weights`).
  Both runs end with the result buffer at `Spec.result` of the argument arrays. The three frames are the generated
  ones (the reference's is its generated run with the result dropped); the idealization rewrote nothing.
-/
import proofs.«170731_j75316546503031_2_alg».proof.Defs
import proofs.«170731_j75316546503031_2_alg».proof.Proof.Gen.Kernel
import proofs.«170731_j75316546503031_2_alg».proof.Proof.Gen.Kernel.Skeleton
import proofs.«170731_j75316546503031_2_alg».proof.Proof.Gen.Kernel.Launch
import proofs.«170731_j75316546503031_2_alg».proof.Proof.Gen.Kernel.Points
import proofs.«170731_j75316546503031_2_alg».proof.Proof.Gen.Kernel.Frame
import proofs.«170731_j75316546503031_2_alg».proof.Proof.Gen.KernelIdeal
import proofs.«170731_j75316546503031_2_alg».proof.Proof.Gen.KernelIdeal.Skeleton
import proofs.«170731_j75316546503031_2_alg».proof.Proof.Gen.KernelIdeal.Launch
import proofs.«170731_j75316546503031_2_alg».proof.Proof.Gen.KernelIdeal.Points
import proofs.«170731_j75316546503031_2_alg».proof.Proof.Gen.KernelIdeal.Frame
import proofs.«170731_j75316546503031_2_alg».proof.Proof.Gen.ReferenceIdeal
import proofs.«170731_j75316546503031_2_alg».proof.Proof.Gen.ReferenceIdeal.Run
import proofs.«170731_j75316546503031_2_alg».proof.Proof.Gen.ReferenceIdeal.Read
import proofs.«170731_j75316546503031_2_alg».proof.Proof.Gen.Pre_finite_inputs
import proofs.«170731_j75316546503031_2_alg».proof.Proof.KernelResult
import proofs.«170731_j75316546503031_2_alg».proof.Proof.RefResult
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the reference: its run, with the result's clause dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the result at `Spec.result` of them. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.PoolValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_stages,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
